-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S_S_d : S_.ReducesTo [] S_

variable [Facts]

def fn_part1 {F : FTy → Type} [FloatOps F] (main_arg4 : FVec F S_ .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x512 .f32) (main_arg1 : FVec F S10000x10000 .f32) (main_arg2 : FVec F S512x512 .f32) (main_arg3 : FVec F S512 .f32) (main_arg4 : FVec F S_ .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S2000x512 : Shape := ⟨2, ![2000, 512]⟩
abbrev S1x512 : Shape := ⟨2, ![1, 512]⟩
abbrev S1x1 : Shape := ⟨2, ![1, 1]⟩
abbrev S200x10000 : Shape := ⟨2, ![200, 10000]⟩
abbrev S200x512 : Shape := ⟨2, ![200, 512]⟩

abbrev nBuf : Space → Nat
  | .hbm => 9
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S10000x512, .bf16⟩
  | .hbm, ⟨6, _⟩ => ⟨S1x512, .f32⟩
  | .hbm, ⟨7, _⟩ => ⟨S1x1, .f32⟩
  | .hbm, ⟨8, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S1x1, .f32⟩
  | .local _ .vmem, ⟨10, _⟩ => ⟨S200x512, .f32⟩
  | .local _ .vmem, ⟨11, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S2000x512_S2000x512_0_0 : (Rect.unit (s := S2000x512) ![0, 0] S2000x512.size inb_S2000x512_S2000x512_0_0).PackedRows (EltTy.packing .bf16)
  shapeCasts_S512_S1x512 : S512.ShapeCasts S1x512
  shapeCasts_S_S1x1 : S_.ShapeCasts S1x1
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x512_S200x512_0_0 : ∀ a, (![0, 0] : Fin 2 → Nat) a + S200x512.size a ≤ S200x512.size a
  h_S200x512 : 0 < S200x512.numel
  dot_S2000x512_S512x512_S2000x512_1_1_0_0_n_n_wf : DotDims.WF S2000x512 S512x512 S2000x512 [1] [1] [0] [0] [] []
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x512.size a ≤ S10000x512.size a
  hwx1_4 : ∀ i : grid1.Coords, EltTy.bits .f32 = 32 ∨ (Rect.block (s := S10000x512) S200x512.size (cc1_transform_4 i) (hinb1_4 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 17
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S512x512, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .i1⟩
  | .hbm, ⟨14, _⟩ => ⟨S10000x512, .f32⟩
  | .hbm, ⟨15, _⟩ => ⟨S10000x512, .f32⟩
  | .hbm, ⟨16, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LayerSpec.lean ====
/-
  One graph-convolution layer with a PReLU, as a function of its five arrays, index by index over the extended reals.

  With x : [10000, 512] (node features), W : [512, 512] (weights, one ROW per output feature), adj : [10000, 10000]
  (the dense adjacency), b : [512] (bias) and a : [] (the PReLU slope):

    proj x W      [k, j] = ∑ l, x[k, l] · W[j, l]                       (x · Wᵀ)
    aggregate … [r, j] = (∑ k, adj[r, k] · h[k, j]) + b[j]             (adj · h + b)
    layer …     [r, j] = o            if o ≥ 0
                         a · o        otherwise,   o = aggregate adj (proj x W) b [r, j].

  The comparison and the choice are the float comparison `≥` against the zero of the format and the selection on its
  one-bit answer, exactly as both programs spell them; nothing below evaluates either.
-/
import Idealize.ShloMosaic.PureOps.Ideal
import Idealize.ShloMosaic.Lib.ValueIdx

noncomputable section

namespace Cert.GraphConv

open Idealize.ShloMosaic Idealize.ShloMosaic.ValueIdx

/-- The projected features: entry (k, j) is row k of `x` against row j of `W`. -/
def proj (x : (⟨2, ![10000, 512]⟩ : Shape).Idx → EReal) (W : (⟨2, ![512, 512]⟩ : Shape).Idx → EReal) :
    (⟨2, ![10000, 512]⟩ : Shape).Idx → EReal :=
  fun i => ∑ l : Fin 512, x (ix2 (i 0) l) * W (ix2 (i 1) l)

/-- Neighbourhood aggregation plus bias: entry (r, j) is row r of `adj` against column j of `h`, plus `b[j]`. -/
def aggregate (adj : (⟨2, ![10000, 10000]⟩ : Shape).Idx → EReal) (h : (⟨2, ![10000, 512]⟩ : Shape).Idx → EReal)
    (b : (⟨1, ![512]⟩ : Shape).Idx → EReal) : (⟨2, ![10000, 512]⟩ : Shape).Idx → EReal :=
  fun i => (∑ k : Fin 10000, adj (ix2 (i 0) k) * h (ix2 k (i 1))) + b (ix1 (i 1))

/-- PReLU with slope `a` at one value: the value itself where it compares `≥ 0`, `a` times it elsewhere. -/
def prelu (a o : EReal) : EReal :=
  Scalar.select (FloatOps.cmpf (F := Ideal) (φ := .f32) .oge o (FloatOps.ofBits (F := Ideal) .f32 0x00000000#32)) o (a * o)

/-- The layer: PReLU of the aggregated projection. -/
def layer (x : (⟨2, ![10000, 512]⟩ : Shape).Idx → EReal) (adj : (⟨2, ![10000, 10000]⟩ : Shape).Idx → EReal)
    (W : (⟨2, ![512, 512]⟩ : Shape).Idx → EReal) (b : (⟨1, ![512]⟩ : Shape).Idx → EReal)
    (a : (⟨0, ![]⟩ : Shape).Idx → EReal) : (⟨2, ![10000, 512]⟩ : Shape).Idx → EReal :=
  fun i => prelu (a ix0) (aggregate adj (proj x W) b i)

/-- The same activation when the bias arrives as a [1, 512] row and the slope as a [1, 1] matrix (how the second kernel
    is handed them): entry (r, j) is PReLU, slope `a11[0, 0]`, of row r of `adj` against column j of `h` plus `brow[0, j]`. -/
def activate (adj : (⟨2, ![10000, 10000]⟩ : Shape).Idx → EReal) (h : (⟨2, ![10000, 512]⟩ : Shape).Idx → EReal)
    (brow : (⟨2, ![1, 512]⟩ : Shape).Idx → EReal) (a11 : (⟨2, ![1, 1]⟩ : Shape).Idx → EReal) :
    (⟨2, ![10000, 512]⟩ : Shape).Idx → EReal :=
  fun i => prelu (a11 (ix2 0 0)) ((∑ k : Fin 10000, adj (ix2 (i 0) k) * h (ix2 k (i 1))) + brow (ix2 0 (i 1)))

/-- With the row read off a length-512 bias and the matrix off a scalar slope, `activate` of the projection is the layer. -/
theorem activate_eq_layer (x : (⟨2, ![10000, 512]⟩ : Shape).Idx → EReal) (adj : (⟨2, ![10000, 10000]⟩ : Shape).Idx → EReal)
    (W : (⟨2, ![512, 512]⟩ : Shape).Idx → EReal) (b : (⟨1, ![512]⟩ : Shape).Idx → EReal)
    (a : (⟨0, ![]⟩ : Shape).Idx → EReal)
    (brow : (⟨2, ![1, 512]⟩ : Shape).Idx → EReal) (a11 : (⟨2, ![1, 1]⟩ : Shape).Idx → EReal)
    (hb : ∀ j : Fin 512, brow (ix2 0 j) = b (ix1 j)) (ha : a11 (ix2 0 0) = a ix0) :
    activate adj (proj x W) brow a11 = layer x adj W b a := by
  funext i
  unfold activate layer aggregate
  rw [ha]
  exact congrArg (prelu (a ix0)) (congrArg (_ + ·) (hb (i 1)))

end Cert.GraphConv

end
-- ==== Proof.RefSide.lean ====
/-
  The reference program computes `GraphConv.layer`.

  Read one operation at a time, the reference transposes W and contracts x against it (entry (k, j) is
  ∑ l, x[k, l] · Wᵀ[l, j] = ∑ l, x[k, l] · W[j, l]), contracts adj against the product, adds the bias broadcast along the
  rows, compares with a broadcast zero, multiplies by the broadcast slope and selects. Index by index that is `layer`:
  the only work is naming the operand indices of each step by their coordinates.
-/
import proofs.«142326_g34720515621625_cont_sun_m_1007_6_alg».proof.Proof.Gen.ReferenceIdeal.Read
import proofs.«142326_g34720515621625_cont_sun_m_1007_6_alg».proof.Proof.LayerSpec

noncomputable section

namespace Cert.ReferenceIdeal.Layer

open Cert.ReferenceIdeal Cert.ReferenceIdeal.Read Cert.GraphConv
open Idealize.ShloMosaic Idealize.ShloMosaic.ValueIdx

/-- The reference's first product is the projection: its left operand is read at (k, l), the transposed weights at
    (l, j), that is W at (j, l). -/
theorem ref_proj (x0 : S10000x512.Idx → EReal) (x2 : S512x512.Idx → EReal) :
    val_main_v1 (F := Ideal) x0 x2 = proj x0 x2 := by
  funext j
  rw [val_main_v1_apply]
  unfold proj
  refine Finset.sum_congr rfl fun l _ => ?_
  rw [val_main_v0_apply]
  have e1 : lidx_main_v1 j l = ix2 (j 0) l :=
    funext fun a => Fin.ext (by match a with | ⟨0, _⟩ => rfl | ⟨1, _⟩ => rfl)
  have e2 : idx_main_v0 (ridx_main_v1 j l) = ix2 (j 1) l :=
    funext fun a => Fin.ext (by match a with | ⟨0, _⟩ => rfl | ⟨1, _⟩ => rfl)
  rw [e1, e2]
  rfl

/-- The value before the activation is the aggregation of the projection plus the bias. -/
theorem ref_aggregate (x0 : S10000x512.Idx → EReal) (x1 : S10000x10000.Idx → EReal) (x2 : S512x512.Idx → EReal)
    (x3 : S512.Idx → EReal) :
    val_main_v5 (F := Ideal) x0 x1 x2 x3 = aggregate x1 (proj x0 x2) x3 := by
  funext i
  rw [val_main_v5_apply, val_main_v2_apply, val_main_v4_apply, val_main_v3_apply, ref_proj]
  unfold aggregate
  have e3 : idx_main_v3 (idx_main_v4 i) = ix1 (i 1) :=
    funext fun a => Fin.ext (by match a with | ⟨0, _⟩ => rfl)
  rw [e3]
  show (∑ k : Fin 10000, x1 (lidx_main_v2 i k) * proj x0 x2 (ridx_main_v2 i k)) + _ = _
  refine congrArg (· + x3 (ix1 (i 1))) (Finset.sum_congr rfl fun k _ => ?_)
  have e1 : lidx_main_v2 i k = ix2 (i 0) k :=
    funext fun a => Fin.ext (by match a with | ⟨0, _⟩ => rfl | ⟨1, _⟩ => rfl)
  have e2 : ridx_main_v2 i k = ix2 k (i 1) :=
    funext fun a => Fin.ext (by match a with | ⟨0, _⟩ => rfl | ⟨1, _⟩ => rfl)
  rw [e1, e2]
  rfl

/-- The reference's result is the layer. -/
theorem ref_layer (x0 : S10000x512.Idx → EReal) (x1 : S10000x10000.Idx → EReal) (x2 : S512x512.Idx → EReal)
    (x3 : S512.Idx → EReal) (x4 : S_.Idx → EReal) :
    val_main_v10 (F := Ideal) x0 x1 x2 x3 x4 = layer x0 x1 x2 x3 x4 := by
  funext i
  rw [val_main_v10_apply, val_main_v7_apply, val_main_v9_apply, val_main_v8_apply, val_main_v6_apply,
    val_main_cst_apply, ref_aggregate]
  rfl

end Cert.ReferenceIdeal.Layer

end
-- ==== Proof.Payloads.lean ====
/-
  What each kernel body stores, at one index of its output block, as a function of its loaded blocks.

  The projection body stores (row p of its x block) against (row q of the whole W): the matrix unit contracts axis 1 of
  both operands into a zero accumulator, and narrowing the product to the 16-bit format changes nothing over the
  extended reals:
      block₀[p, q] = ∑ l, xblk[p, l] · W[q, l].
  The aggregation body stores PReLU of (row p of its adj block against column q of the whole h) plus the bias row's
  entry q, the slope being the single entry of its [1,1] operand:
      block₁[p, q] = prelu a ((∑ k, adjblk[p, k] · h[k, q]) + brow[0, q]).
-/
import proofs.«142326_g34720515621625_cont_sun_m_1007_6_alg».proof.Proof.Gen.KernelIdeal.Skeleton
import proofs.«142326_g34720515621625_cont_sun_m_1007_6_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer

open Cert.KernelIdeal Cert.KernelIdeal.Gen Cert.GraphConv
open Idealize.ShloMosaic Idealize.ShloMosaic.ValueIdx

/-! ## The two contractions' operand indices, by coordinates -/

/-- x · Wᵀ on a row block: at output (p, q) and contraction position l the left operand is read at (p, l). -/
theorem projDot_lhs (p : Fin 2000) (q : Fin 512) (l : Fin 512) :
    dot_S2000x512_S512x512_S2000x512_1_1_0_0_n_n.lhsIdx (ix2 p q)
      ((contrEquiv1 dot_S2000x512_S512x512_S2000x512_1_1_0_0_n_n 512 rfl rfl).symm l) = ix2 p l := by
  have hk := contrEquiv1_symm_val dot_S2000x512_S512x512_S2000x512_1_1_0_0_n_n 512 rfl rfl l
  refine funext fun a => Fin.ext ?_
  match a with
  | ⟨0, _⟩ =>
    show (dot_S2000x512_S512x512_S2000x512_1_1_0_0_n_n.lhsIdx (ix2 p q) _ 0).val = p.val
    unfold DotDims.lhsIdx
    rw [dif_neg (show ¬(0 : Fin S2000x512.rank) ∈ dot_S2000x512_S512x512_S2000x512_1_1_0_0_n_n.lhsBatch by decide),
      dif_pos (show (0 : Fin S2000x512.rank) ∈ dot_S2000x512_S512x512_S2000x512_1_1_0_0_n_n.lhsNonContracting by decide)]
    rfl
  | ⟨1, _⟩ =>
    exact (dot_S2000x512_S512x512_S2000x512_1_1_0_0_n_n.lhsIdx_val_of_single rfl (ix2 p q) _).trans hk

/-- … and the right operand, W, at (q, l): its rows are the output's columns. -/
theorem projDot_rhs (p : Fin 2000) (q : Fin 512) (l : Fin 512) :
    dot_S2000x512_S512x512_S2000x512_1_1_0_0_n_n.rhsIdx (ix2 p q)
      ((contrEquiv1 dot_S2000x512_S512x512_S2000x512_1_1_0_0_n_n 512 rfl rfl).symm l) = ix2 q l := by
  have hk := contrEquiv1_symm_val dot_S2000x512_S512x512_S2000x512_1_1_0_0_n_n 512 rfl rfl l
  refine funext fun a => Fin.ext ?_
  match a with
  | ⟨0, _⟩ =>
    show (dot_S2000x512_S512x512_S2000x512_1_1_0_0_n_n.rhsIdx (ix2 p q) _ 0).val = q.val
    unfold DotDims.rhsIdx
    rw [dif_neg (show ¬(0 : Fin S512x512.rank) ∈ dot_S2000x512_S512x512_S2000x512_1_1_0_0_n_n.rhsBatch by decide),
      dif_pos (show (0 : Fin S512x512.rank) ∈ dot_S2000x512_S512x512_S2000x512_1_1_0_0_n_n.rhsNonContracting by decide)]
    rfl
  | ⟨1, _⟩ =>
    exact (dot_S2000x512_S512x512_S2000x512_1_1_0_0_n_n.rhsIdx_val_of_single rfl (ix2 p q) _).trans hk

/-- adj · h on a row block: at output (p, q) and contraction position k the left operand is read at (p, k). -/
theorem aggDot_lhs (p : Fin 200) (q : Fin 512) (k : Fin 10000) :
    dot_S200x10000_S10000x512_S200x512_1_0_0_1_n_n.lhsIdx (ix2 p q)
      ((contrEquiv1 dot_S200x10000_S10000x512_S200x512_1_0_0_1_n_n 10000 rfl rfl).symm k) = ix2 p k := by
  have hk := contrEquiv1_symm_val dot_S200x10000_S10000x512_S200x512_1_0_0_1_n_n 10000 rfl rfl k
  refine funext fun a => Fin.ext ?_
  match a with
  | ⟨0, _⟩ =>
    show (dot_S200x10000_S10000x512_S200x512_1_0_0_1_n_n.lhsIdx (ix2 p q) _ 0).val = p.val
    unfold DotDims.lhsIdx
    rw [dif_neg (show ¬(0 : Fin S200x10000.rank) ∈ dot_S200x10000_S10000x512_S200x512_1_0_0_1_n_n.lhsBatch by decide),
      dif_pos (show (0 : Fin S200x10000.rank) ∈ dot_S200x10000_S10000x512_S200x512_1_0_0_1_n_n.lhsNonContracting by decide)]
    rfl
  | ⟨1, _⟩ =>
    exact (dot_S200x10000_S10000x512_S200x512_1_0_0_1_n_n.lhsIdx_val_of_single rfl (ix2 p q) _).trans hk

/-- … and the right operand, h, at (k, q). -/
theorem aggDot_rhs (p : Fin 200) (q : Fin 512) (k : Fin 10000) :
    dot_S200x10000_S10000x512_S200x512_1_0_0_1_n_n.rhsIdx (ix2 p q)
      ((contrEquiv1 dot_S200x10000_S10000x512_S200x512_1_0_0_1_n_n 10000 rfl rfl).symm k) = ix2 k q := by
  have hk := contrEquiv1_symm_val dot_S200x10000_S10000x512_S200x512_1_0_0_1_n_n 10000 rfl rfl k
  refine funext fun a => Fin.ext ?_
  match a with
  | ⟨0, _⟩ =>
    exact (dot_S200x10000_S10000x512_S200x512_1_0_0_1_n_n.rhsIdx_val_of_single rfl (ix2 p q) _).trans hk
  | ⟨1, _⟩ =>
    show (dot_S200x10000_S10000x512_S200x512_1_0_0_1_n_n.rhsIdx (ix2 p q) _ 1).val = q.val
    unfold DotDims.rhsIdx
    rw [dif_neg (show ¬(1 : Fin S10000x512.rank) ∈ dot_S200x10000_S10000x512_S200x512_1_0_0_1_n_n.rhsBatch by decide),
      dif_pos (show (1 : Fin S10000x512.rank) ∈ dot_S200x10000_S10000x512_S200x512_1_0_0_1_n_n.rhsNonContracting by decide)]
    rfl

/-! ## The payloads -/

/-- The projection body's stored block at (p, q). -/
theorem proj_payload (x0 : FVec Ideal S2000x512 .f32) (x1 : FVec Ideal S512x512 .f32) (p : Fin 2000) (q : Fin 512) :
    k0_pay1 (F := Ideal) x0 x1 (ix2 p q) = ∑ l : Fin 512, x0 (ix2 p l) * x1 (ix2 q l) := by
  unfold k0_pay1
  refine (Ideal.matmul_constant_zero_apply dot_S2000x512_S512x512_S2000x512_1_1_0_0_n_n none x0 x1 (ix2 p q)).trans ?_
  rw [← Equiv.sum_comp (contrEquiv1 dot_S2000x512_S512x512_S2000x512_1_1_0_0_n_n 512 rfl rfl).symm]
  refine Finset.sum_congr rfl fun l _ => ?_
  rw [projDot_lhs, projDot_rhs]

/-- The contraction inside the aggregation body at (p, q). -/
theorem agg_product (x0 : FVec Ideal S200x10000 .f32) (x1 : FVec Ideal S10000x512 .bf16) (p : Fin 200) (q : Fin 512) :
    FloatOps.matmul dot_S200x10000_S10000x512_S200x512_1_0_0_1_n_n none x0 x1
        (constant (F := Ideal) S200x512 .f32 0x00000000#32) (ix2 p q)
      = ∑ k : Fin 10000, x0 (ix2 p k) * x1 (ix2 k q) := by
  refine (Ideal.matmul_constant_zero_apply dot_S200x10000_S10000x512_S200x512_1_0_0_1_n_n none x0 x1 (ix2 p q)).trans ?_
  rw [← Equiv.sum_comp (contrEquiv1 dot_S200x10000_S10000x512_S200x512_1_0_0_1_n_n 10000 rfl rfl).symm]
  refine Finset.sum_congr rfl fun k _ => ?_
  rw [aggDot_lhs, aggDot_rhs]

/-- PReLU depends only on its two values. -/
theorem prelu_congr {a a' o o' : EReal} (ha : a = a') (ho : o = o') : prelu a o = prelu a' o' := by
  rw [ha, ho]

/-- The aggregation body's stored block at (p, q). -/
theorem agg_payload (x0 : FVec Ideal S200x10000 .f32) (x1 : FVec Ideal S10000x512 .bf16) (x2 : FVec Ideal S1x512 .f32)
    (x3 : FVec Ideal S1x1 .f32) (p : Fin 200) (q : Fin 512) :
    k1_pay1 (F := Ideal) x0 x1 x2 x3 (ix2 p q)
      = prelu (x3 (ix2 0 0)) ((∑ k : Fin 10000, x0 (ix2 p k) * x1 (ix2 k q)) + x2 (ix2 0 q)) := by
  unfold k1_pay1
  refine prelu_congr ?_ ?_
  · exact congrArg x3 (funext fun a => Fin.ext (by match a with | ⟨0, _⟩ => rfl | ⟨1, _⟩ => rfl))
  · refine congrArg₂ (· + ·) ?_ ?_
    · rw [shapeCast_self]
      exact agg_product x0 x1 p q
    · rw [shapeCast_self]
      exact broadcastTo_1b_ab_apply x2 broadcasts_S1x512_S200x512 p q

end Cert.KernelIdeal.Layer

end
-- ==== Proof.ProjRegion.lean ====
/-
  The first kernel's result array is the projection of the arrays it finds.

  Its grid has five points; point t stages rows 2000·t … 2000·t + 1999 of x, the whole of W, and writes back rows
  2000·t … 2000·t + 1999 of the result. What the body stores at (p, q) of its block is row p of the x block against
  row q of W, that is, row 2000·t + p of x against row q of W: the block of the one whole-array function `proj x W`.
  The five row blocks cover every row (row r lies in block r / 2000), so after the last point the array is `proj x W`.
  Stated for any contents `V` the kernel is entered from.
-/
import proofs.«142326_g34720515621625_cont_sun_m_1007_6_alg».proof.Proof.Gen.KernelIdeal.Frame
import proofs.«142326_g34720515621625_cont_sun_m_1007_6_alg».proof.Proof.Payloads

noncomputable section

namespace Cert.KernelIdeal.Layer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at point t: x and the result move down the rows with t, W stays put. -/
theorem proj_block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the entry arrays. -/
theorem proj_flushed (c : Dev nD) (t : Fin cfg0.N) :
    (dat0 V c).flushed 2 t
      = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  obtain ⟨e00, e01, e10, e11, e20, e21⟩ := proj_block_index t
  funext y
  revert y
  show ∀ y : S2000x512.Idx, k0_pay1 (F := Ideal) (iblk0 V c 0 t) (iblk0 V c 1 t) y
    = proj (V c main_arg0) (V c main_arg2) (((cfg0.win 2).blk t).view.emb y)
  intro y
  obtain ⟨p, q, rfl⟩ : ∃ (p : Fin 2000) (q : Fin 512), y = ix2 p q := ⟨y 0, y 1, eq_ix2 y⟩
  refine (proj_payload (iblk0 V c 0 t) (iblk0 V c 1 t) p q).trans ?_
  unfold proj
  refine Finset.sum_congr rfl fun l _ => ?_
  refine congrArg₂ (· * ·) ?_ ?_
  · show V c main_arg0 (((cfg0.win 0).blk t).view.emb (ix2 p l)) = V c main_arg0 _
    refine congrArg (V c main_arg0) (funext fun a => Fin.ext ?_)
    match a with
    | ⟨0, _⟩ =>
      show win0_0.index t (0 : Fin 2) * 2000 + 1 * p.val = win0_2.index t (0 : Fin 2) * 2000 + 1 * p.val
      rw [e00, e20]
    | ⟨1, _⟩ =>
      show win0_0.index t (1 : Fin 2) * 512 + 1 * l.val = l.val
      rw [e01]; omega
  · show V c main_arg2 (((cfg0.win 1).blk t).view.emb (ix2 q l)) = V c main_arg2 _
    refine congrArg (V c main_arg2) (funext fun a => Fin.ext ?_)
    match a with
    | ⟨0, _⟩ =>
      show win0_1.index t (0 : Fin 2) * 512 + 1 * q.val = win0_2.index t (1 : Fin 2) * 512 + 1 * q.val
      rw [e10, e21]
    | ⟨1, _⟩ =>
      show win0_1.index t (1 : Fin 2) * 512 + 1 * l.val = l.val
      rw [e11]; omega

/-- An index is in point t's result block iff each coordinate is in the block's range on its axis. -/
theorem proj_mem_block (t : Fin cfg0.N) (i : S10000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v0).slice (win0_2.rect t)).set ↔ _
  rw [View.set_slice_whole, Rect.mem_set_unit]
  exact Iff.rfl

/-- Every index of the result lies in some point's block: row r in block r / 2000. -/
theorem proj_cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨-, -, -, -, e20, e21⟩ := proj_block_index t
  refine ⟨t, flush0_2 t, ?_⟩
  rw [proj_mem_block]
  intro a
  match a with
  | ⟨0, _⟩ =>
    show win0_2.index t (0 : Fin 2) * 2000 ≤ (i 0).val ∧ (i 0).val < win0_2.index t (0 : Fin 2) * 2000 + 2000
    rw [e20, ht]; omega
  | ⟨1, _⟩ =>
    show win0_2.index t (1 : Fin 2) * 512 ≤ (i 1).val ∧ (i 1).val < win0_2.index t (1 : Fin 2) * 512 + 512
    rw [e21]; omega

/-- The first kernel's result array after its last point. -/
theorem proj_final (c : Dev nD) :
    (dat0 V c).arrAt 2 cfg0.N = proj (V c main_arg0) (V c main_arg2) :=
  (dat0 V c).arrAt_eq_of_cover 2 (proj (V c main_arg0) (V c main_arg2)) (fun t _ => proj_flushed V c t) proj_cover

end Cert.KernelIdeal.Layer

end
-- ==== Proof.AggRegion.lean ====
/-
  The second kernel's result array is `activate` of the arrays it finds.

  Its grid has fifty points; point t stages rows 200·t … 200·t + 199 of adj, and the whole of h, of the bias row and of
  the [1, 1] slope, and writes back rows 200·t … 200·t + 199 of the result. What the body stores at (p, q) of its block is
  PReLU of row p of the adj block against column q of h plus the bias row's entry q: that is entry (200·t + p, q) of the
  one whole-array function `activate adj h brow a11`. The fifty row blocks cover every row (row r lies in block r / 200).
  Stated for any contents `V` the kernel is entered from.
-/
import proofs.«142326_g34720515621625_cont_sun_m_1007_6_alg».proof.Proof.Gen.KernelIdeal.Frame
import proofs.«142326_g34720515621625_cont_sun_m_1007_6_alg».proof.Proof.Payloads

noncomputable section

namespace Cert.KernelIdeal.Layer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem no_offsets : (![0, 0] : Fin 2 → Nat) = fun _ => 0 := funext fun a => by fin_cases a <;> rfl

/-- The block indices at point t: adj and the result move down the rows with t, the other three stay put. -/
theorem agg_block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `activate` of the entry arrays. -/
theorem agg_flushed (c : Dev nD) (t : Fin cfg1.N) :
    (dat1 V c).flushed 4 t
      = ((cfg1.win 4).blk t).view.read (Elt Ideal)
          (activate (V c main_arg1) (V c main_v0) (V c main_v1) (V c main_v2)) := by
  show (cfg1.win 4).cut (grid1.coords t) ((dat1 V c).after 4 t) = _
  rw [after1_4]
  unfold out1_4
  rw [View.canon_unit_zero no_offsets]
  simp only [View.ld_unit_zero (S := S200x10000) no_offsets, View.ld_unit_zero (S := S10000x512) no_offsets,
    View.ld_unit_zero (S := S1x512) no_offsets, View.ld_unit_zero (S := S1x1) no_offsets]
  obtain ⟨e00, e01, e10, e11, e20, e21, e30, e31, e40, e41⟩ := agg_block_index t
  funext y
  revert y
  show ∀ y : S200x512.Idx, k1_pay1 (F := Ideal) (iblk1 V c 0 t) (iblk1 V c 1 t) (iblk1 V c 2 t) (iblk1 V c 3 t) y
    = activate (V c main_arg1) (V c main_v0) (V c main_v1) (V c main_v2) (((cfg1.win 4).blk t).view.emb y)
  intro y
  obtain ⟨p, q, rfl⟩ : ∃ (p : Fin 200) (q : Fin 512), y = ix2 p q := ⟨y 0, y 1, eq_ix2 y⟩
  refine (agg_payload (iblk1 V c 0 t) (iblk1 V c 1 t) (iblk1 V c 2 t) (iblk1 V c 3 t) p q).trans ?_
  unfold activate
  refine prelu_congr ?_ (congrArg₂ (· + ·) (Finset.sum_congr rfl fun k _ => congrArg₂ (· * ·) ?_ ?_) ?_)
  · show V c main_v2 (((cfg1.win 3).blk t).view.emb (ix2 0 0)) = V c main_v2 _
    refine congrArg (V c main_v2) (funext fun a => Fin.ext ?_)
    match a with
    | ⟨0, _⟩ =>
      show win1_3.index t (0 : Fin 2) * 1 + 1 * 0 = 0
      rw [e30]
    | ⟨1, _⟩ =>
      show win1_3.index t (1 : Fin 2) * 1 + 1 * 0 = 0
      rw [e31]
  · show V c main_arg1 (((cfg1.win 0).blk t).view.emb (ix2 p k)) = V c main_arg1 _
    refine congrArg (V c main_arg1) (funext fun a => Fin.ext ?_)
    match a with
    | ⟨0, _⟩ =>
      show win1_0.index t (0 : Fin 2) * 200 + 1 * p.val = win1_4.index t (0 : Fin 2) * 200 + 1 * p.val
      rw [e00, e40]
    | ⟨1, _⟩ =>
      show win1_0.index t (1 : Fin 2) * 10000 + 1 * k.val = k.val
      rw [e01]; omega
  · show V c main_v0 (((cfg1.win 1).blk t).view.emb (ix2 k q)) = V c main_v0 _
    refine congrArg (V c main_v0) (funext fun a => Fin.ext ?_)
    match a with
    | ⟨0, _⟩ =>
      show win1_1.index t (0 : Fin 2) * 10000 + 1 * k.val = k.val
      rw [e10]; omega
    | ⟨1, _⟩ =>
      show win1_1.index t (1 : Fin 2) * 512 + 1 * q.val = win1_4.index t (1 : Fin 2) * 512 + 1 * q.val
      rw [e11, e41]
  · show V c main_v1 (((cfg1.win 2).blk t).view.emb (ix2 0 q)) = V c main_v1 _
    refine congrArg (V c main_v1) (funext fun a => Fin.ext ?_)
    match a with
    | ⟨0, _⟩ =>
      show win1_2.index t (0 : Fin 2) * 1 + 1 * 0 = 0
      rw [e20]
    | ⟨1, _⟩ =>
      show win1_2.index t (1 : Fin 2) * 512 + 1 * q.val = win1_4.index t (1 : Fin 2) * 512 + 1 * q.val
      rw [e21, e41]

/-- An index is in point t's result block iff each coordinate is in the block's range on its axis. -/
theorem agg_mem_block (t : Fin cfg1.N) (i : S10000x512.Idx) :
    i ∈ ((cfg1.win 4).blk t).view.set ↔ ∀ a : Fin 2, win1_4.index t a * S200x512.size a ≤ (i a).val
      ∧ (i a).val < win1_4.index t a * S200x512.size a + S200x512.size a := by
  show i ∈ ((View.whole main_v3).slice (win1_4.rect t)).set ↔ _
  rw [View.set_slice_whole, Rect.mem_set_unit]
  exact Iff.rfl

/-- Every index of the result lies in some point's block: row r in block r / 200. -/
theorem agg_cover (i : S10000x512.Idx) :
    ∃ t : Fin cfg1.N, (cfg1.win 4).flush t = true ∧ i ∈ ((cfg1.win 4).blk t).view.set := by
  have hi0 : (i 0).val < 10000 := (i 0).isLt
  have hi1 : (i 1).val < 512 := (i 1).isLt
  have hN : cfg1.N = 50 := N_1
  obtain ⟨t, ht⟩ : ∃ t : Fin cfg1.N, t.val = (i 0).val / 200 := ⟨⟨(i 0).val / 200, by rw [hN]; omega⟩, rfl⟩
  obtain ⟨-, -, -, -, -, -, -, -, e40, e41⟩ := agg_block_index t
  refine ⟨t, flush1_4 t, ?_⟩
  rw [agg_mem_block]
  intro a
  match a with
  | ⟨0, _⟩ =>
    show win1_4.index t (0 : Fin 2) * 200 ≤ (i 0).val ∧ (i 0).val < win1_4.index t (0 : Fin 2) * 200 + 200
    rw [e40, ht]; omega
  | ⟨1, _⟩ =>
    show win1_4.index t (1 : Fin 2) * 512 ≤ (i 1).val ∧ (i 1).val < win1_4.index t (1 : Fin 2) * 512 + 512
    rw [e41]; omega

/-- The second kernel's result array after its last point. -/
theorem agg_final (c : Dev nD) :
    (dat1 V c).arrAt 4 cfg1.N = activate (V c main_arg1) (V c main_v0) (V c main_v1) (V c main_v2) :=
  (dat1 V c).arrAt_eq_of_cover 4 (activate (V c main_arg1) (V c main_v0) (V c main_v1) (V c main_v2))
    (fun t _ => agg_flushed V c t) agg_cover

end Cert.KernelIdeal.Layer

end
-- ==== Proof.Boundaries.lean ====
/-
  The contents the second kernel is entered from, and the result buffer at the end, in terms of the launch memory.

  Between the two kernels the program only reshapes the bias to a [1, 512] row and the slope to a [1, 1] matrix. So the
  second kernel finds: adj as launched (nothing writes it); in the first kernel's result buffer the projection of the
  launched x and W (the first kernel's final array, which the reshapes do not touch); the bias as a row; the slope as a
  matrix. Its own final array is `activate` of those four, which is the layer of the five launched arrays.
-/
import proofs.«142326_g34720515621625_cont_sun_m_1007_6_alg».proof.Proof.ProjRegion
import proofs.«142326_g34720515621625_cont_sun_m_1007_6_alg».proof.Proof.AggRegion
import Idealize.ShloMosaic.Lib.StableHlo.Run
import Idealize.ShloMosaic.Lib.ValueLayout

noncomputable section

namespace Cert.KernelIdeal.Layer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A scalar cast to a [1, 1] matrix reads the scalar at every index. -/
theorem scalar_as_matrix {α : Type} (x : S_.Idx → α) (h : S_.ShapeCasts S1x1) (j : S1x1.Idx) :
    shapeCast S1x1 x h j = x ix0 := by
  unfold shapeCast
  exact congrArg x (funext fun a => a.elim0)

/-- The second kernel finds adj as launched. -/
theorem entry_adj (c : Dev nD) : V2 m ρ c main_arg1 = m ((c : Thread nD τ).loc main_arg1) :=
  (((W3_arr m ρ c 0).trans (((dat1 (V2 m ρ) c).arrAt_in 0 rfl _).trans (A_eq1 (V2 m ρ) c 0))).symm).trans
    (W3_main_arg1 m ρ c)

/-- The reshapes between the kernels write neither of these buffers. -/
theorem reshapes_keep (c : Dev nD) (b : Ref sig .tc) (h1 : main_v1 ≠ b) (h2 : main_v2 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1.symm, StableHlo.devRef_ne_of_ne h2.symm⟩))

/-- It finds, in the first kernel's result buffer, the projection of the launched x and W. -/
theorem entry_h (c : Dev nD) :
    V2 m ρ c main_v0 = proj (m ((c : Thread nD τ).loc main_arg0)) (m ((c : Thread nD τ).loc main_arg2)) :=
  calc V2 m ρ c main_v0
    _ = W1 m ρ c (Proc.devRef .tc main_v0) := reshapes_keep m ρ c main_v0 (by decide) (by decide)
    _ = (dat0 (V0 m ρ) c).arrAt 2 cfg0.N := W1_arr m ρ c 2
    _ = proj (V0 m ρ c main_arg0) (V0 m ρ c main_arg2) := proj_final (V0 m ρ) c
    _ = _ := rfl

/-- It finds the bias as a row. -/
theorem entry_bias (c : Dev nD) :
    V2 m ρ c main_v1 = shapeCast S1x512 (m ((c : Thread nD τ).loc main_arg3)) shapeCasts_S512_S1x512 := by
  show StableHlo.after hostOps1 (W1 m ρ c) (Proc.devRef .tc main_v1) = _
  after_results
  rw [W1_of_ne m ρ c main_arg3 (by decide)]
  rfl

/-- It finds the slope as a [1, 1] matrix. -/
theorem entry_slope (c : Dev nD) :
    V2 m ρ c main_v2 = shapeCast S1x1 (m ((c : Thread nD τ).loc main_arg4)) shapeCasts_S_S1x1 := by
  show StableHlo.after hostOps1 (W1 m ρ c) (Proc.devRef .tc main_v2) = _
  after_results
  rw [W1_of_ne m ρ c main_arg4 (by decide)]
  rfl

/-- The result buffer at the last boundary is the layer of the five launched arrays. -/
theorem result_eq (c : Dev nD) :
    W3 m ρ c (Proc.devRef .tc main_v3)
      = layer (m ((c : Thread nD τ).loc main_arg0)) (m ((c : Thread nD τ).loc main_arg1))
          (m ((c : Thread nD τ).loc main_arg2)) (m ((c : Thread nD τ).loc main_arg3))
          (m ((c : Thread nD τ).loc main_arg4)) := by
  refine (W3_arr m ρ c 4).trans ?_
  rw [agg_final (V2 m ρ) c, entry_adj, entry_h, entry_bias, entry_slope]
  exact activate_eq_layer _ _ _ _ _ _ _
    (fun j => shapeCast_a_1a_apply _ shapeCasts_S512_S1x512 0 j)
    (scalar_as_matrix _ shapeCasts_S_S1x1 _)

end Cert.KernelIdeal.Layer

end
-- ==== Proof.KernelRun.lean ====
/-
  The program's run with its result buffer named.

  Every weakly fair execution of the two-kernel program terminates, nothing faulting, and in every final state the
  result buffer holds what the second kernel's write-backs leave there (the last boundary's contents at that buffer),
  the five argument arrays being as launched. This is the run over the program's three segments — first kernel, the
  two reshapes, second kernel — read at one more buffer than the arguments: the final thread state holds EVERY
  unscoped buffer at the last boundary's contents, the result buffer among them.
-/
import proofs.«142326_g34720515621625_cont_sun_m_1007_6_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_named : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Layer

end
-- ==== Proof.lean ====
/-
  A graph-convolution layer with a PReLU, as two TPU kernels, against its plain jnp reference: equal over the
  extended reals.

  The reference computes  out = PReLU_a(adj · (x · Wᵀ) + b),  PReLU_a(o) = o where o ≥ 0 and a · o elsewhere.
  The kernel program computes the same in two launches. The first contracts each block of 2000 rows of x against the
  whole of W (into a zero accumulator, stored in a 16-bit format: over the extended reals a change of format is the
  identity and 0 + s = s), leaving h = x · Wᵀ. The program then reshapes b to a row and a to a [1, 1] matrix. The second
  launch contracts each block of 200 rows of adj against the whole of h, adds the bias row, and selects between the sum
  and a times the sum on the comparison with zero.

  Both sides are therefore the one function `GraphConv.layer` of the five arrays, index by index
  (Proof/LayerSpec.lean), with the same grouping of every sum: no law of the extended reals beyond 0 + s = s is used,
  and the inputs' finiteness is never opened.
    Proof/RefSide.lean     the reference's term is `layer`;
    Proof/Payloads.lean    what each kernel body stores at one index of its block;
    Proof/ProjRegion.lean  the first launch's final array is `proj` of what it finds;
    Proof/AggRegion.lean   the second launch's final array is `activate` of what it finds;
    Proof/Boundaries.lean  what the second launch finds, and the result buffer at the end, from the launch memory;
    Proof/KernelRun.lean   the program's run with its result buffer named.
  The ideal pass rewrote nothing in the kernel program, so `preserves` has no conjunct.
-/
import proofs.«142326_g34720515621625_cont_sun_m_1007_6_alg».proof.Defs
import proofs.«142326_g34720515621625_cont_sun_m_1007_6_alg».proof.Proof.Gen.Kernel
import proofs.«142326_g34720515621625_cont_sun_m_1007_6_alg».proof.Proof.Gen.Kernel.Skeleton
import proofs.«142326_g34720515621625_cont_sun_m_1007_6_alg».proof.Proof.Gen.Kernel.Launch
import proofs.«142326_g34720515621625_cont_sun_m_1007_6_alg».proof.Proof.Gen.Kernel.Points
import proofs.«142326_g34720515621625_cont_sun_m_1007_6_alg».proof.Proof.Gen.Kernel.Frame
import proofs.«142326_g34720515621625_cont_sun_m_1007_6_alg».proof.Proof.Gen.KernelIdeal
import proofs.«142326_g34720515621625_cont_sun_m_1007_6_alg».proof.Proof.Gen.KernelIdeal.Skeleton
import proofs.«142326_g34720515621625_cont_sun_m_1007_6_alg».proof.Proof.Gen.KernelIdeal.Launch
import proofs.«142326_g34720515621625_cont_sun_m_1007_6_alg».proof.Proof.Gen.KernelIdeal.Points
import proofs.«142326_g34720515621625_cont_sun_m_1007_6_alg».proof.Proof.Gen.KernelIdeal.Frame
import proofs.«142326_g34720515621625_cont_sun_m_1007_6_alg».proof.Proof.Gen.ReferenceIdeal
import proofs.«142326_g34720515621625_cont_sun_m_1007_6_alg».proof.Proof.Gen.Pre_finite_inputs
import proofs.«142326_g34720515621625_cont_sun_m_1007_6_alg».proof.Proof.Gen.ReferenceIdeal.Run
import proofs.«142326_g34720515621625_cont_sun_m_1007_6_alg».proof.Proof.Gen.ReferenceIdeal.Read
import proofs.«142326_g34720515621625_cont_sun_m_1007_6_alg».proof.Proof.RefSide
import proofs.«142326_g34720515621625_cont_sun_m_1007_6_alg».proof.Proof.Boundaries
import proofs.«142326_g34720515621625_cont_sun_m_1007_6_alg».proof.Proof.KernelRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories agreeing on the five arrays, both programs end with the result buffer at
    `layer` of those arrays: the kernel program's by its run read at the result buffer, the reference's by its run
    read one operation at a time. -/
theorem algebraic : Cert.algebraic_KernelIdeal_ReferenceIdeal := by
  intro m ρ m' ρ' _ hagree
  refine ⟨fun c => Cert.GraphConv.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Layer.result_eq m ρ c), (h c).2⟩)
      (Cert.KernelIdeal.Layer.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.ReferenceIdeal.Layer.ref_layer,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
